-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x2048x2048 : Shape := ⟨3, ![32, 2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_

variable [Facts]

def fn {F : FTy → Type} [FloatOps F] (main_arg0 : FVec F S32x2048 .f32) (main_arg1 : FVec F S32x2048x2048 .f32) (main_arg2 : IVec S32x2048 1) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  main_v8
-- ==== Kernel.lean ====
abbrev S32x2048 : Shape := ⟨2, ![32, 2048]⟩
abbrev S32x2048x2048 : Shape := ⟨3, ![32, 2048, 2048]⟩
abbrev S8x128 : Shape := ⟨2, ![8, 128]⟩
abbrev S8x2048 : Shape := ⟨2, ![8, 2048]⟩
abbrev S8x128x2048 : Shape := ⟨3, ![8, 128, 2048]⟩
abbrev S8x128x1 : Shape := ⟨3, ![8, 128, 1]⟩
abbrev S8x1x2048 : Shape := ⟨3, ![8, 1, 2048]⟩

abbrev nBuf : Space → Nat
  | .hbm => 6
  | .vmem => 14
  | .smem => 0
  | _ => 0

abbrev bufTy : (tb : Table) → Fin (tcTables nBuf tb) → BufTy
  | .hbm, ⟨0, _⟩ => ⟨S32x2048, .f32⟩
  | .hbm, ⟨1, _⟩ => ⟨S32x2048x2048, .f32⟩
  | .hbm, ⟨2, _⟩ => ⟨S32x2048, .i1⟩
  | .hbm, ⟨3, _⟩ => ⟨S32x2048, .i32⟩
  | .hbm, ⟨4, _⟩ => ⟨S32x2048, .f32⟩
  | .hbm, ⟨5, _⟩ => ⟨S32x2048x2048, .f32⟩
  | .local _ .vmem, ⟨0, _⟩ => ⟨S8x128, .f32⟩
  | .local _ .vmem, ⟨1, _⟩ => ⟨S8x128, .f32⟩
  | .local _ .vmem, ⟨2, _⟩ => ⟨S8x2048, .f32⟩
  | .local _ .vmem, ⟨3, _⟩ => ⟨S8x2048, .f32⟩
  | .local _ .vmem, ⟨4, _⟩ => ⟨S8x128, .i32⟩
  | .local _ .vmem, ⟨5, _⟩ => ⟨S8x128, .i32⟩
  | .local _ .vmem, ⟨6, _⟩ => ⟨S8x2048, .i32⟩
  | .local _ .vmem, ⟨7, _⟩ => ⟨S8x2048, .i32⟩
  | .local _ .vmem, ⟨8, _⟩ => ⟨S8x128x2048, .f32⟩
  | .local _ .vmem, ⟨9, _⟩ => ⟨S8x128x2048, .f32⟩
  | .local _ .vmem, ⟨10, _⟩ => ⟨S8x128, .f32⟩
  | .local _ .vmem, ⟨11, _⟩ => ⟨S8x128, .f32⟩
  | .local _ .vmem, ⟨12, _⟩ => ⟨S8x128x2048, .f32⟩
  | .local _ .vmem, ⟨13, _⟩ => ⟨S8x128x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  natLt_1_32 : 1 < 32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x128x2048_S8x128x2048_0_0_0 : ∀ a, (![0, 0, 0] : Fin 3 → Nat) a + S8x128x2048.size a ≤ S8x128x2048.size a
  h_S8x128x2048 : 0 < S8x128x2048.numel
  shapeCasts_S8x128_S8x128x1 : S8x128.ShapeCasts S8x128x1
  broadcasts_S8x128x1_S8x128x2048 : S8x128x1.Broadcasts S8x128x2048
  shapeCasts_S8x2048_S8x1x2048 : S8x2048.ShapeCasts S8x1x2048
  broadcasts_S8x1x2048_S8x128x2048 : S8x1x2048.Broadcasts S8x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S32x2048.size a
  hwx0_0 : ∀ i : grid0.Coords, EltTy.bits .f32 = 32 ∨ (Rect.block (s := S32x2048) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S32x2048.size a
  hwx0_1 : ∀ i : grid0.Coords, EltTy.bits .f32 = 32 ∨ (Rect.block (s := S32x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x2048.size a
  hwx0_2 : ∀ i : grid0.Coords, EltTy.bits .i32 = 32 ∨ (Rect.block (s := S32x2048) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S32x2048.size a
  hwx0_3 : ∀ i : grid0.Coords, EltTy.bits .i32 = 32 ∨ (Rect.block (s := S32x2048) S8x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x2048.size a ≤ S32x2048x2048.size a
  hwx0_4 : ∀ i : grid0.Coords, EltTy.bits .f32 = 32 ∨ (Rect.block (s := S32x2048x2048) S8x128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x2048.size a
  hwx0_5 : ∀ i : grid0.Coords, EltTy.bits .f32 = 32 ∨ (Rect.block (s := S32x2048) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x2048.size a ≤ S32x2048x2048.size a
  hwx0_6 : ∀ i : grid0.Coords, EltTy.bits .f32 = 32 ∨ (Rect.block (s := S32x2048x2048) S8x128x2048.size (cc0_transform_6 i) (hinb0_6 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S8x128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x2048 : Shape := ⟨2, ![32, 2048]⟩
abbrev S32x2048x2048 : Shape := ⟨3, ![32, 2048, 2048]⟩
abbrev S_ : Shape := ⟨0, ![]⟩
abbrev S32x2048x1 : Shape := ⟨3, ![32, 2048, 1]⟩
abbrev S32x1x2048 : Shape := ⟨3, ![32, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048x2048, .f32⟩
  | .hbm, ⟨2, _⟩ => ⟨S32x2048, .i1⟩
  | .hbm, ⟨3, _⟩ => ⟨S_, .f32⟩
  | .hbm, ⟨4, _⟩ => ⟨S32x2048, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .i1⟩
  | .hbm, ⟨12, _⟩ => ⟨S32x2048x1, .i1⟩
  | .hbm, ⟨13, _⟩ => ⟨S32x1x2048, .i1⟩
  | .hbm, ⟨14, _⟩ => ⟨S32x2048x2048, .i1⟩
  | .hbm, ⟨15, _⟩ => ⟨S32x2048x2048, .i1⟩
  | .hbm, ⟨16, _⟩ => ⟨S32x2048x2048, .i1⟩
  | .hbm, ⟨17, _⟩ => ⟨S_, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048x2048, .f32⟩
  | .hbm, ⟨22, _⟩ => ⟨S32x2048x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)

variable [Facts₀]

class Facts : Prop extends Facts₀ where

variable [Facts]
-- ==== Proof.LibSharedFrame.lean ====
/-
  The frame run of a one-region pipeline kernel whose windows may SHARE arrays.

  A pipelined kernel is handed each operand through a window: at every grid point the window's block of the
  operand's array is copied into a staging buffer, the body runs on the staging buffers, and each output
  window's block is copied back.  When every window has an array of its own, the arrays are held whole, one per
  window.  When one array is handed to the kernel through SEVERAL input windows (one array read at two block
  shapes, say), no single window can hold the array whole: its ownership is dealt among the windows on it as
  fractional shares, each share enough to read the array, none enough to write it.

  The statement below is the run of such a program from launch to its end: for proof data whose per-window
  shares are justified by `hsplit` (the distinct buffers behind the arrays, each held whole, yield every window's
  array at that window's share), whose body obligation holds at every grid point, whose body keeps no state
  from point to point beyond the scoped buffers the pipeline does not stage (`hΦ`), and which owes no
  signal, every weakly fair execution terminates without a fault, every window's array ends at the contents
  the write-backs leave (`arrAt` at the last point: an input's entry contents, an output's blocks overwritten
  in point order), and every unscoped buffer that is no window's array ends as the region found it.  Windows
  on one array end holding the same contents, each its own `arrAt`.
-/
import Idealize.ShloMosaic.Lib.Pipeline.Frame

noncomputable section

namespace Cert.Lib.SharedFrame

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- The frame run of pipeline `p` when its windows may share arrays: the layout facts but for the arrays'
    distinctness (`hw`), the staging cells distinct (`hinj`), the body obligation, the shares' dealing (`hsplit`), and
    an invariant that is the scoped rest at every point (`hΦ`: the body carries nothing the proof names). The
    generator register, which such a body does not use, is let go at the region's entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (cfgs p).spec c (V c))
    (fun c => by
      iintro H
      isplitr
      · iempintro
      · iexact H)
    (fun c => by
      rw [hΦ]
      iintro ⟨-, H⟩
      iexact H)
    (fun c => by
      rw [hΦ]
      iintro H
      isplitr
      · iempintro
      · iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedFrame

end
-- ==== Proof.KData.lean ====
/-
  The frame of the dropout kernel's program: it runs to the end, nothing faults, and its argument arrays end
  as they were launched; and, beyond the frame, what each result array holds afterwards, block by block.

  The program is one host operation (the keep bits widened to 32-bit words) and one pipelined region on a
  4 × 16 grid.  At grid point (i, j) the region stages: the means' block (8, 128) at (i, j) and the means' whole
  rows (8, 2048) at (i, 0) — TWO windows on the one mean array —, the keep words' block (8, 128) at (i, j) and
  their whole rows (8, 2048) at (i, 0) — two windows on the one keep-word array —, and the covariance block
  (8, 128, 2048) at (i, j, 0); it writes back the dropped means' block (8, 128) at (i, j) and the dropped
  covariance block (8, 128, 2048) at (i, j, 0).  The body loads every staged block whole, computes, and stores
  each output block whole; it keeps nothing from point to point and uses no semaphore of its own.

  Because two input windows read one array, that array's ownership is dealt between them in two half shares
  (each enough to read); the output arrays and the covariance array are held whole.
-/
import proofs.«115459_j56092272885821_2_alg».proof.Proof.Gen.Kernel.Launch
import proofs.«115459_j56092272885821_2_alg».proof.Proof.Gen.Kernel.Skeleton
import proofs.«115459_j56092272885821_2_alg».proof.Proof.Gen.Kernel.Points
import proofs.«115459_j56092272885821_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the keep-word array: the mean array is as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- the covariance array is as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
/-- and the keep-bit array is as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved since its last fetch), for any proof data whose array is the region-entry
    contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes a staging buffer whole -/

abbrev rTile : Rect S8x128 := Rect.unit (s := S8x128) ![0, 0] S8x128.size inb_S8x128_S8x128_0_0
abbrev rRows : Rect S8x2048 := Rect.unit (s := S8x2048) ![0, 0] S8x2048.size inb_S8x2048_S8x2048_0_0
abbrev rCov : Rect S8x128x2048 := Rect.unit (s := S8x128x2048) ![0, 0, 0] S8x128x2048.size inb_S8x128x2048_S8x128x2048_0_0_0

/-! ## What the body leaves in each output window's buffer -/

/-- The dropped-mean buffer after the body: its one store, of the mean block and keep-word block loaded whole. -/
def outMean (xMu : Vec F S8x128 .f32) (xKeep : Vec F S8x128 .i32) : Vec F S8x128 .f32 :=
  View.canon [⟨rTile, k0_pay2 (View.ld xKeep rTile) (View.ld xMu rTile)⟩]

/-- The dropped-covariance buffer after the body: its one store, of the five input blocks loaded whole. -/
def outCov (xMu : Vec F S8x128 .f32) (xMuRows : Vec F S8x2048 .f32) (xKeep : Vec F S8x128 .i32) (xKeepRows : Vec F S8x2048 .i32)
    (xCov : Vec F S8x128x2048 .f32) : Vec F S8x128x2048 .f32 :=
  View.canon [⟨rCov, k0_pay3 (View.ld xKeep rTile) (View.ld xKeepRows rRows) (View.ld xMu rTile) (View.ld xMuRows rRows) (View.ld xCov rCov)⟩]

/-- Each store covers its buffer. -/
theorem coverMean (p0 : Vec F S8x128 .f32) (y : S8x128.Idx) :
    ∃ pc ∈ ([⟨rTile, p0⟩] : List (View.Piece (Elt F) S8x128 .f32)), y ∈ pc.1.set :=
  View.cover_of_tiled [⟨rTile, p0⟩] S8x128.size (by rfl) y
theorem coverCov (p0 : Vec F S8x128x2048 .f32) (y : S8x128x2048.Idx) :
    ∃ pc ∈ ([⟨rCov, p0⟩] : List (View.Piece (Elt F) S8x128x2048 .f32)), y ∈ pc.1.set :=
  View.cover_of_tiled [⟨rCov, p0⟩] S8x128x2048.size (by rfl) y

/-! ## The body's triple -/

set_option maxHeartbeats 1000000 in
/-- The body on whole staging buffers, the five inputs' at read contents and the two outputs' at anything, runs to its
    end holding the inputs' as they were and the outputs' at `outMean` / `outCov` of the inputs'. -/
theorem sound_kernel (c : Dev nD) (E : Set ℕ) (i : grid0.Coords)
    (arg2 : Memref sig .tc .vmem S8x128 .f32) (harg2 : arg2.IsWhole) (arg3 : Memref sig .tc .vmem S8x2048 .f32) (harg3 : arg3.IsWhole)
    (arg4 : Memref sig .tc .vmem S8x128 .i32) (harg4 : arg4.IsWhole) (arg5 : Memref sig .tc .vmem S8x2048 .i32) (harg5 : arg5.IsWhole)
    (arg6 : Memref sig .tc .vmem S8x128x2048 .f32) (harg6 : arg6.IsWhole) (arg7 : Memref sig .tc .vmem S8x128 .f32) (harg7 : arg7.IsWhole)
    (arg8 : Memref sig .tc .vmem S8x128x2048 .f32) (harg8 : arg8.IsWhole)
    (x0 : Vec F S8x128 .f32) (x1 : Vec F S8x2048 .f32) (x2 : Vec F S8x128 .i32) (x3 : Vec F S8x2048 .i32) (x4 : Vec F S8x128x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outMean x0 x2) ∗ owns (c : Thread nD τ) arg8 fullShare (outCov x0 x1 x2 x3 x4)) -∗ K ⟨⟩))
      ⊢ wp frame (wpE (defs₀ (F := F)) Variants.none c none) E (cc0__vdp_dropout_kernel i arg2 harg2 arg3 harg3 arg4 harg4 arg5 harg5 arg6 harg6 arg7 harg7 arg8 harg8) K := by
  simp only [cc0__vdp_dropout_kernel_eq_skeleton]; unfold cc0__vdp_dropout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverMean _)
  iexists _; isplitr
  swap; · iexact H6
  ipureintro
  exact View.read_writes_eq_canon _ _ _ (coverCov _)

/-! ## The pipeline's proof data -/

/-- The proof data on core `c`: the arrays as the region finds them; after the body at point `t` each input's buffer at
    its block and each output's at `outMean` / `outCov` of the input blocks; the invariant the scoped buffers the pipeline
    does not stage; nothing owed. The mean array, read through windows 0 and 1, is held in two half shares, one per
    window; so is the keep-word array, read through windows 2 and 3; the covariance array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outMean (iblk m c 0 t) (iblk m c 2 t)
    | ⟨6, _⟩ => outCov (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outMean (iblk m c 0 t) (iblk m c 2 t) := by dsimp only [dats]
theorem after6 (c : Dev nD) (t : Fin cfg0.N) :
    (dats m 0 c).after 6 t = outCov (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.Kernel.Hand

end
-- ==== Proof.KRun.lean ====
/-
  The dropout kernel's program, run: the body's obligation at every grid point, the dealing of the two shared
  arrays' ownership between the windows that read them, and from these the run of the whole program — it ends,
  nothing faults, the argument arrays end as launched, and each result array ends at what the write-backs of the
  64 grid points leave in it.
-/
import proofs.«115459_j56092272885821_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays between their windows -/

/-- The distinct buffers behind the seven windows' arrays: the means, the keep words, the covariances, and the two
    results. -/
theorem arrRefs_eq : Finset.univ.image (Pipeline.arrRef spec0) = [main_arg0, main_v0, main_arg1, main_v1_0, main_v1_1].toFinset := by
  decide

/-- Every window's array is a whole buffer, so holding it over its element set is holding the buffer. -/
theorem arrays_eq (c : Dev nD) (G : (w : Fin cfg0.W) → Buf (Elt F) ((cfg0.win w).arr.view.loc (c.tc : Thread nD τ))) :
    (dats m 0 c).arrays G
      = bigSep Finset.univ fun w : Fin 7 => (((c.tc : Thread nD τ).loc (Pipeline.arrRef spec0 w)) ↦{(dats m 0 c).share w} G w : sProp 𝕄) := by
  unfold Dat.arrays
  exact bigSep_congr fun w _ => by rw [(arr_whole0 w).set_eq_univ]

/-- The buffers behind the arrays, each held whole, yield every window's array at that window's share: the mean
    buffer's ownership splits into the two halves windows 0 and 1 hold, the keep-word buffer's into the halves
    windows 2 and 3 hold, and the other three buffers go whole to their one window each. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [bigSep_eq_bigSepL_of_eq _ arrRefs_eq (by decide)]
  simp only [bigSepL_cons_cons, bigSepL_singleton]
  refine (show iprop((((c.tc : Thread nD τ).loc main_arg0) ↦{fullShare} V m c main_arg0)
      ∗ (((c.tc : Thread nD τ).loc main_v0) ↦{fullShare} V m c main_v0)
      ∗ (((c.tc : Thread nD τ).loc main_arg1) ↦{fullShare} V m c main_arg1)
      ∗ (((c.tc : Thread nD τ).loc main_v1_0) ↦{fullShare} V m c main_v1_0)
      ∗ (((c.tc : Thread nD τ).loc main_v1_1) ↦{fullShare} V m c main_v1_1)) ⊢ _ from ?_)
  iintro ⟨Hmu, Hkw, Hcov, Hr0, Hr1⟩
  ihave Hmu' := (pointsTo_share (PosShare.mem_left_op_right fullShare)).1 $$ Hmu
  icases Hmu' with ⟨Hmu0, Hmu1⟩
  ihave Hkw' := (pointsTo_share (PosShare.mem_left_op_right fullShare)).1 $$ Hkw
  icases Hkw' with ⟨Hkw0, Hkw1⟩
  isplitl [Hmu0]; · iexact Hmu0
  isplitl [Hmu1]; · iexact Hmu1
  isplitl [Hkw0]; · iexact Hkw0
  isplitl [Hkw1]; · iexact Hkw1
  isplitl [Hcov]; · iexact Hcov
  isplitl [Hr0]; · iexact Hr0
  iexact Hr1

/-! ## The run -/

set_option backward.isDefEq.respectTransparency.types false in
/-- From any memory with zero counters: every weakly fair execution of the program terminates, nothing faulting, every
    window's array ends at what the write-backs leave, and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- info: 'Cert.Kernel.Hand.run_main' depends on axioms: [propext, Classical.choice, Quot.sound] -/
#guard_msgs in #print axioms run_main

/-- After the run the mean array is as launched: window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run the covariance array is as launched: window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))
/-- After the run the keep-bit array is as launched: no window stages it, and the host operation only reads it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- THE FRAME: the program runs to its end, nothing faults, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_main_arg0 m r h c, kept_main_arg1 m r h c, kept_main_arg2 m r h c⟩) (run_main m ρ)

/-- The run with each result array NAMED: the dropped means at what the 64 write-backs of window 5 leave, the dropped
    covariances at what those of window 6 leave; the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 5, (h c).1 6, kept_main_arg0 m r h c, kept_main_arg1 m r h c, kept_main_arg2 m r h c⟩)
    (run_main m ρ)

end Cert.Kernel.Hand

end
-- ==== Proof.KIData.lean ====
/-
  The frame of the dropout kernel's program: it runs to the end, nothing faults, and its argument arrays end
  as they were launched; and, beyond the frame, what each result array holds afterwards, block by block.

  The program is one host operation (the keep bits widened to 32-bit words) and one pipelined region on a
  4 × 16 grid.  At grid point (i, j) the region stages: the means' block (8, 128) at (i, j) and the means' whole
  rows (8, 2048) at (i, 0) — TWO windows on the one mean array —, the keep words' block (8, 128) at (i, j) and
  their whole rows (8, 2048) at (i, 0) — two windows on the one keep-word array —, and the covariance block
  (8, 128, 2048) at (i, j, 0); it writes back the dropped means' block (8, 128) at (i, j) and the dropped
  covariance block (8, 128, 2048) at (i, j, 0).  The body loads every staged block whole, computes, and stores
  each output block whole; it keeps nothing from point to point and uses no semaphore of its own.

  Because two input windows read one array, that array's ownership is dealt between them in two half shares
  (each enough to read); the output arrays and the covariance array are held whole.
-/
import proofs.«115459_j56092272885821_2_alg».proof.Proof.Gen.KernelIdeal.Launch
import proofs.«115459_j56092272885821_2_alg».proof.Proof.Gen.KernelIdeal.Skeleton
import proofs.«115459_j56092272885821_2_alg».proof.Proof.Gen.KernelIdeal.Points
import proofs.«115459_j56092272885821_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the keep-word array: the mean array is as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- the covariance array is as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
/-- and the keep-bit array is as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved since its last fetch), for any proof data whose array is the region-entry
    contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes a staging buffer whole -/

abbrev rTile : Rect S8x128 := Rect.unit (s := S8x128) ![0, 0] S8x128.size inb_S8x128_S8x128_0_0
abbrev rRows : Rect S8x2048 := Rect.unit (s := S8x2048) ![0, 0] S8x2048.size inb_S8x2048_S8x2048_0_0
abbrev rCov : Rect S8x128x2048 := Rect.unit (s := S8x128x2048) ![0, 0, 0] S8x128x2048.size inb_S8x128x2048_S8x128x2048_0_0_0

/-! ## What the body leaves in each output window's buffer -/

/-- The dropped-mean buffer after the body: its one store, of the mean block and keep-word block loaded whole. -/
def outMean (xMu : Vec F S8x128 .f32) (xKeep : Vec F S8x128 .i32) : Vec F S8x128 .f32 :=
  View.canon [⟨rTile, k0_pay2 (View.ld xKeep rTile) (View.ld xMu rTile)⟩]

/-- The dropped-covariance buffer after the body: its one store, of the five input blocks loaded whole. -/
def outCov (xMu : Vec F S8x128 .f32) (xMuRows : Vec F S8x2048 .f32) (xKeep : Vec F S8x128 .i32) (xKeepRows : Vec F S8x2048 .i32)
    (xCov : Vec F S8x128x2048 .f32) : Vec F S8x128x2048 .f32 :=
  View.canon [⟨rCov, k0_pay3 (View.ld xKeep rTile) (View.ld xKeepRows rRows) (View.ld xMu rTile) (View.ld xMuRows rRows) (View.ld xCov rCov)⟩]

/-- Each store covers its buffer. -/
theorem coverMean (p0 : Vec F S8x128 .f32) (y : S8x128.Idx) :
    ∃ pc ∈ ([⟨rTile, p0⟩] : List (View.Piece (Elt F) S8x128 .f32)), y ∈ pc.1.set :=
  View.cover_of_tiled [⟨rTile, p0⟩] S8x128.size (by rfl) y
theorem coverCov (p0 : Vec F S8x128x2048 .f32) (y : S8x128x2048.Idx) :
    ∃ pc ∈ ([⟨rCov, p0⟩] : List (View.Piece (Elt F) S8x128x2048 .f32)), y ∈ pc.1.set :=
  View.cover_of_tiled [⟨rCov, p0⟩] S8x128x2048.size (by rfl) y

/-! ## The body's triple -/

set_option maxHeartbeats 1000000 in
/-- The body on whole staging buffers, the five inputs' at read contents and the two outputs' at anything, runs to its
    end holding the inputs' as they were and the outputs' at `outMean` / `outCov` of the inputs'. -/
theorem sound_kernel (c : Dev nD) (E : Set ℕ) (i : grid0.Coords)
    (arg2 : Memref sig .tc .vmem S8x128 .f32) (harg2 : arg2.IsWhole) (arg3 : Memref sig .tc .vmem S8x2048 .f32) (harg3 : arg3.IsWhole)
    (arg4 : Memref sig .tc .vmem S8x128 .i32) (harg4 : arg4.IsWhole) (arg5 : Memref sig .tc .vmem S8x2048 .i32) (harg5 : arg5.IsWhole)
    (arg6 : Memref sig .tc .vmem S8x128x2048 .f32) (harg6 : arg6.IsWhole) (arg7 : Memref sig .tc .vmem S8x128 .f32) (harg7 : arg7.IsWhole)
    (arg8 : Memref sig .tc .vmem S8x128x2048 .f32) (harg8 : arg8.IsWhole)
    (x0 : Vec F S8x128 .f32) (x1 : Vec F S8x2048 .f32) (x2 : Vec F S8x128 .i32) (x3 : Vec F S8x2048 .i32) (x4 : Vec F S8x128x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outMean x0 x2) ∗ owns (c : Thread nD τ) arg8 fullShare (outCov x0 x1 x2 x3 x4)) -∗ K ⟨⟩))
      ⊢ wp frame (wpE (defs₀ (F := F)) Variants.none c none) E (cc0__vdp_dropout_kernel i arg2 harg2 arg3 harg3 arg4 harg4 arg5 harg5 arg6 harg6 arg7 harg7 arg8 harg8) K := by
  simp only [cc0__vdp_dropout_kernel_eq_skeleton]; unfold cc0__vdp_dropout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverMean _)
  iexists _; isplitr
  swap; · iexact H6
  ipureintro
  exact View.read_writes_eq_canon _ _ _ (coverCov _)

/-! ## The pipeline's proof data -/

/-- The proof data on core `c`: the arrays as the region finds them; after the body at point `t` each input's buffer at
    its block and each output's at `outMean` / `outCov` of the input blocks; the invariant the scoped buffers the pipeline
    does not stage; nothing owed. The mean array, read through windows 0 and 1, is held in two half shares, one per
    window; so is the keep-word array, read through windows 2 and 3; the covariance array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outMean (iblk m c 0 t) (iblk m c 2 t)
    | ⟨6, _⟩ => outCov (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outMean (iblk m c 0 t) (iblk m c 2 t) := by dsimp only [dats]
theorem after6 (c : Dev nD) (t : Fin cfg0.N) :
    (dats m 0 c).after 6 t = outCov (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.KernelIdeal.Hand

end
-- ==== Proof.KIRun.lean ====
/-
  The dropout kernel's program, run: the body's obligation at every grid point, the dealing of the two shared
  arrays' ownership between the windows that read them, and from these the run of the whole program — it ends,
  nothing faults, the argument arrays end as launched, and each result array ends at what the write-backs of the
  64 grid points leave in it.
-/
import proofs.«115459_j56092272885821_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays between their windows -/

/-- The distinct buffers behind the seven windows' arrays: the means, the keep words, the covariances, and the two
    results. -/
theorem arrRefs_eq : Finset.univ.image (Pipeline.arrRef spec0) = [main_arg0, main_v0, main_arg1, main_v1_0, main_v1_1].toFinset := by
  decide

/-- Every window's array is a whole buffer, so holding it over its element set is holding the buffer. -/
theorem arrays_eq (c : Dev nD) (G : (w : Fin cfg0.W) → Buf (Elt F) ((cfg0.win w).arr.view.loc (c.tc : Thread nD τ))) :
    (dats m 0 c).arrays G
      = bigSep Finset.univ fun w : Fin 7 => (((c.tc : Thread nD τ).loc (Pipeline.arrRef spec0 w)) ↦{(dats m 0 c).share w} G w : sProp 𝕄) := by
  unfold Dat.arrays
  exact bigSep_congr fun w _ => by rw [(arr_whole0 w).set_eq_univ]

/-- The buffers behind the arrays, each held whole, yield every window's array at that window's share: the mean
    buffer's ownership splits into the two halves windows 0 and 1 hold, the keep-word buffer's into the halves
    windows 2 and 3 hold, and the other three buffers go whole to their one window each. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [bigSep_eq_bigSepL_of_eq _ arrRefs_eq (by decide)]
  simp only [bigSepL_cons_cons, bigSepL_singleton]
  refine (show iprop((((c.tc : Thread nD τ).loc main_arg0) ↦{fullShare} V m c main_arg0)
      ∗ (((c.tc : Thread nD τ).loc main_v0) ↦{fullShare} V m c main_v0)
      ∗ (((c.tc : Thread nD τ).loc main_arg1) ↦{fullShare} V m c main_arg1)
      ∗ (((c.tc : Thread nD τ).loc main_v1_0) ↦{fullShare} V m c main_v1_0)
      ∗ (((c.tc : Thread nD τ).loc main_v1_1) ↦{fullShare} V m c main_v1_1)) ⊢ _ from ?_)
  iintro ⟨Hmu, Hkw, Hcov, Hr0, Hr1⟩
  ihave Hmu' := (pointsTo_share (PosShare.mem_left_op_right fullShare)).1 $$ Hmu
  icases Hmu' with ⟨Hmu0, Hmu1⟩
  ihave Hkw' := (pointsTo_share (PosShare.mem_left_op_right fullShare)).1 $$ Hkw
  icases Hkw' with ⟨Hkw0, Hkw1⟩
  isplitl [Hmu0]; · iexact Hmu0
  isplitl [Hmu1]; · iexact Hmu1
  isplitl [Hkw0]; · iexact Hkw0
  isplitl [Hkw1]; · iexact Hkw1
  isplitl [Hcov]; · iexact Hcov
  isplitl [Hr0]; · iexact Hr0
  iexact Hr1

/-! ## The run -/

set_option backward.isDefEq.respectTransparency.types false in
/-- From any memory with zero counters: every weakly fair execution of the program terminates, nothing faulting, every
    window's array ends at what the write-backs leave, and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- info: 'Cert.KernelIdeal.Hand.run_main' depends on axioms: [propext, Classical.choice, Quot.sound] -/
#guard_msgs in #print axioms run_main

/-- After the run the mean array is as launched: window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run the covariance array is as launched: window 4 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))
/-- After the run the keep-bit array is as launched: no window stages it, and the host operation only reads it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- THE FRAME: the program runs to its end, nothing faults, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_main_arg0 m r h c, kept_main_arg1 m r h c, kept_main_arg2 m r h c⟩) (run_main m ρ)

/-- The run with each result array NAMED: the dropped means at what the 64 write-backs of window 5 leave, the dropped
    covariances at what those of window 6 leave; the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 5, (h c).1 6, kept_main_arg0 m r h c, kept_main_arg1 m r h c, kept_main_arg2 m r h c⟩)
    (run_main m ρ)

end Cert.KernelIdeal.Hand

end
-- ==== Proof.Spec.lean ====
/-
  Dropout of a Gaussian's mean vector and covariance, over the extended reals.

  A batch of 32 mean vectors of 2048 units, each with a 2048 × 2048 covariance, and one keep bit per unit.
  A kept unit's mean is scaled by 1/(1-p) = 1.25 and a dropped unit's mean becomes 0.  A unit is LIVE when its
  dropped mean is nonzero; a covariance entry (i, j) is scaled by 1/(1-p)² = 1.5625 when both units i and j of
  its batch row are live, and becomes 0 otherwise.

  Two spellings of the same functions are stated here.  The first is the definition just given (a mask selects
  the entry, then the scale multiplies).  The second multiplies the entry by a 0/1 factor per unit, where the
  factor is 1 exactly when the unit is kept and its ORIGINAL mean is nonzero, and where the keep bit arrives
  widened to a 32-bit word.  That the two agree is the algebra of the certificate:
  x · 1.25 ≠ 0 ⟺ x ≠ 0 on the extended reals, s · 0 = 0 and s · 1 = s for every extended real s.
-/
import Idealize.ShloMosaic.PureOps.Ideal
import Idealize.ShloMosaic.Lib.ValueIdx

noncomputable section

namespace Cert.Vdp

open Idealize.ShloMosaic Idealize.ShloMosaic.ValueIdx

/-- Indices of a mean array: (batch row, unit). -/
abbrev MuIdx : Type := (⟨2, ![32, 2048]⟩ : Shape).Idx
/-- Indices of a covariance array: (batch row, unit, unit). -/
abbrev SigIdx : Type := (⟨3, ![32, 2048, 2048]⟩ : Shape).Idx

/-- 1/(1-p) = 1.25, as the f32 word both programs spell. -/
abbrev scale : EReal := Ideal.ofBits .f32 0x3FA00000#32
/-- 1/(1-p)² = 1.5625, as the f32 word both programs spell. -/
abbrev scaleSq : EReal := Ideal.ofBits .f32 0x3FC80000#32
/-- The f32 zero word. -/
abbrev zero : EReal := Ideal.ofBits .f32 0x00000000#32

/-! ## Masked form: select, then scale -/

/-- Dropout of one mean: a kept unit scaled by 1/(1-p), a dropped unit zero. -/
def dropMu (k : BitVec 1) (x : EReal) : EReal := Scalar.select k (x * scale) zero

/-- Dropout of one covariance entry between units of keep bits `ki`, `kj` and means `xi`, `xj`: scaled by
    1/(1-p)² when both dropped means are nonzero, zero otherwise. -/
def dropSig (ki kj : BitVec 1) (xi xj s : EReal) : EReal :=
  scaleSq * Scalar.select (IntOp.andi (Ideal.cmp .une (dropMu ki xi) zero) (Ideal.cmp .une (dropMu kj xj) zero)) s zero

/-- The dropped mean array. -/
def outMu (mu : MuIdx → EReal) (keep : MuIdx → BitVec 1) : MuIdx → EReal :=
  fun i => dropMu (keep i) (mu i)

/-- The dropped covariance array: entry (b, i, j) depends on the covariance entry and on units i and j of row b. -/
def outSig (mu : MuIdx → EReal) (sg : SigIdx → EReal) (keep : MuIdx → BitVec 1) : SigIdx → EReal :=
  fun i => dropSig (keep (ix2 (i 0) (i 1))) (keep (ix2 (i 0) (i 2))) (mu (ix2 (i 0) (i 1))) (mu (ix2 (i 0) (i 2))) (sg i)

/-! ## Factor form: the keep bit a 32-bit word, the mask a product of 0/1 factors -/

/-- A widened keep word reads as kept when it is not the zero word. -/
def kept (w : BitVec 32) : BitVec 1 := IntOp.cmpi .ne w 0#32

/-- Dropout of one mean, the keep bit a word. -/
def kerMu (w : BitVec 32) (x : EReal) : EReal := Scalar.select (kept w) (x * scale) zero

/-- The 0/1 factor of a unit: 1 when it is kept and its mean is nonzero. -/
def factor (w : BitVec 32) (x : EReal) : EReal :=
  (((BitVec.setWidth 32 (IntOp.andi (kept w) (Ideal.cmp .one x zero))).toInt : ℝ) : EReal)

/-- Dropout of one covariance entry as a product: entry × factor of unit i × factor of unit j × 1/(1-p)². -/
def kerSig (wi wj : BitVec 32) (xi xj s : EReal) : EReal :=
  ((s * factor wi xi) * factor wj xj) * scaleSq

end Cert.Vdp

end
-- ==== Proof.KIPayload.lean ====
/-
  The kernel body's two stored values read AT AN INDEX, at the extended reals, in the factor form of the
  specification.

  The body's arithmetic is pointwise except for four layout steps: a column of per-unit factors [8,128] is
  viewed [8,128,1] and repeated along the last axis, and a row of per-unit factors [8,2048] is viewed [8,1,2048]
  and repeated along the middle axis.  Read at (b, r, c), the first gives the factor of unit (b, r) and the second
  the factor of unit (b, c); everything else reads through index by index.
-/
import proofs.«115459_j56092272885821_2_alg».proof.Proof.Spec
import proofs.«115459_j56092272885821_2_alg».proof.Proof.Gen.KernelIdeal.Skeleton
import Idealize.ShloMosaic.Lib.ValueIdx
import Idealize.ShloMosaic.Lib.Pipeline.Value
import Idealize.ShloMosaic.Lib.ValueLayout

noncomputable section

namespace Cert.Vdp.Ker

open Cert.KernelIdeal Cert.KernelIdeal.Gen Idealize.ShloMosaic Idealize.ShloMosaic.ValueIdx

/-! ## The four layout steps at an index -/

section Layout
variable {α : Type}

/-- An [a, b] array viewed [a, b, 1] reads, at (i, j, u), the operand at (i, j): both have row-major position
    i * b + j, the unit coordinate being 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, c] array viewed [a, 1, c] reads, at (i, u, k), the operand at (i, k): both have row-major position
    i * c + k, the unit coordinate being 0. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An [a, b, 1] array repeated along its last axis to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array repeated along its middle axis to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The payloads at an index -/

section Payload
variable [Cert.KernelIdeal.Facts]

/-- The keep mask of the row tile at an index: the keep word there is not the zero word. -/
theorem pay1_at (v0 : Vec Ideal S8x128 .i32) (j : S8x128.Idx) :
    k0_pay1 (F := Ideal) v0 j = kept (v0 j) := by
  unfold k0_pay1
  show IntOp.cmpi .ne (shapeCast S8x128 v0 _ j) 0#32 = kept (v0 j)
  rw [shapeCast_self]
  rfl

/-- The stored mean block at an index: the dropout of that unit's mean. -/
theorem pay2_at (v0 : Vec Ideal S8x128 .i32) (v8 : Vec Ideal S8x128 .f32) (j : S8x128.Idx) :
    k0_pay2 (F := Ideal) v0 v8 j = kerMu (v0 j) (v8 j) := by
  unfold k0_pay2
  show Scalar.select (k0_pay1 (F := Ideal) v0 j) (v8 j * scale) zero = kerMu (v0 j) (v8 j)
  rw [pay1_at]
  rfl

/-- The block of 0/1 factors of the row tile's units (kept, and mean nonzero), converted to the float type: the
    kernel's own spelling, named so that the covariance payload can be read in three steps. -/
def rowF (v0 : Vec Ideal S8x128 .i32) (v8 : Vec Ideal S8x128 .f32) : FVec Ideal S8x128 .f32 :=
  sitofp .f32 (extui 32 (andi (k0_pay1 (F := Ideal) v0)
    (cmpf .one v8 (broadcast S8x128 (Scalar.ofBits (F := Ideal) .f32 0x00000000#32)))) natLt_1_32)

/-- The block of 0/1 factors of the full row's units, the same way. -/
def colF (v4 : Vec Ideal S8x2048 .i32) (v9 : Vec Ideal S8x2048 .f32) : FVec Ideal S8x2048 .f32 :=
  sitofp .f32 (extui 32 (andi (cmpi .ne (shapeCast S8x2048 v4 shapeCasts_S8x2048_S8x2048) (broadcast S8x2048 0#32))
    (cmpf .one v9 (broadcast S8x2048 (Scalar.ofBits (F := Ideal) .f32 0x00000000#32)))) natLt_1_32)

/-- The row tile's factor block at an index is the specification's factor of that unit. -/
theorem rowF_at (v0 : Vec Ideal S8x128 .i32) (v8 : Vec Ideal S8x128 .f32) (j : S8x128.Idx) :
    rowF v0 v8 j = factor (v0 j) (v8 j) := by
  unfold rowF
  show (((BitVec.setWidth 32 (IntOp.andi (k0_pay1 (F := Ideal) v0 j) (Ideal.cmp .one (v8 j) zero))).toInt : ℝ) : EReal)
    = factor (v0 j) (v8 j)
  rw [pay1_at]
  rfl

/-- The full row's factor block at an index is the specification's factor of that unit. -/
theorem colF_at (v4 : Vec Ideal S8x2048 .i32) (v9 : Vec Ideal S8x2048 .f32) (j : S8x2048.Idx) :
    colF v4 v9 j = factor (v4 j) (v9 j) := by
  unfold colF
  show (((BitVec.setWidth 32 (IntOp.andi (IntOp.cmpi .ne (shapeCast S8x2048 v4 _ j) 0#32)
      (Ideal.cmp .one (v9 j) zero))).toInt : ℝ) : EReal) = factor (v4 j) (v9 j)
  rw [shapeCast_self]
  rfl

/-- The covariance payload is the covariance block times the row tile's factors repeated along the columns, times
    the full row's factors repeated along the rows, times 1/(1-p)²: the kernel's text with the two factor blocks
    named. -/
theorem pay3_eq (v0 : Vec Ideal S8x128 .i32) (v4 : Vec Ideal S8x2048 .i32) (v8 : Vec Ideal S8x128 .f32)
    (v9 : Vec Ideal S8x2048 .f32) (v25 : Vec Ideal S8x128x2048 .f32) :
    k0_pay3 (F := Ideal) v0 v4 v8 v9 v25 =
      mulf (mulf (mulf v25
          (broadcastTo S8x128x2048 (shapeCast S8x128x1 (rowF v0 v8) shapeCasts_S8x128_S8x128x1)
            broadcasts_S8x128x1_S8x128x2048))
          (broadcastTo S8x128x2048 (shapeCast S8x1x2048 (colF v4 v9) shapeCasts_S8x2048_S8x1x2048)
            broadcasts_S8x1x2048_S8x128x2048))
        (broadcast S8x128x2048 scaleSq) := rfl

/-- The stored covariance block at (b, r, c): the entry times the factor of unit (b, r), times the factor of unit
    (b, c), times 1/(1-p)². -/
theorem pay3_at (v0 : Vec Ideal S8x128 .i32) (v4 : Vec Ideal S8x2048 .i32) (v8 : Vec Ideal S8x128 .f32)
    (v9 : Vec Ideal S8x2048 .f32) (v25 : Vec Ideal S8x128x2048 .f32) (b : Fin 8) (r : Fin 128) (c : Fin 2048) :
    k0_pay3 (F := Ideal) v0 v4 v8 v9 v25 (ix3 b r c)
      = kerSig (v0 (ix2 b r)) (v4 (ix2 b c)) (v8 (ix2 b r)) (v9 (ix2 b c)) (v25 (ix3 b r c)) := by
  rw [pay3_eq]
  show ((v25 (ix3 b r c)
        * broadcastTo S8x128x2048 (shapeCast S8x128x1 (rowF v0 v8) shapeCasts_S8x128_S8x128x1)
            broadcasts_S8x128x1_S8x128x2048 (ix3 b r c))
        * broadcastTo S8x128x2048 (shapeCast S8x1x2048 (colF v4 v9) shapeCasts_S8x2048_S8x1x2048)
            broadcasts_S8x1x2048_S8x128x2048 (ix3 b r c))
      * scaleSq = _
  rw [broadcastTo_ab1_abc_apply, shapeCast_ab_ab1_apply, broadcastTo_a1c_abc_apply, shapeCast_ac_a1c_apply,
    rowF_at, colF_at]
  rfl

end Payload

end Cert.Vdp.Ker

end
-- ==== Proof.SpecLaws.lean ====
/-
  The algebra joining the two spellings of dropout stated in the specification module.

  The masked form selects an entry and then scales it; the factor form multiplies the entry by a 0/1 factor per
  unit.  They agree because
    * a keep bit widened to a 32-bit word is nonzero exactly when the bit is 1;
    * 1.25 is a nonzero real, and the extended reals have no zero divisors, so x · 1.25 ≠ 0 ⟺ x ≠ 0;
    * a dropped unit's mean is the zero word, which denotes 0;
    * a factor is 0 or 1, and s · 0 = 0, s · 1 = s for every extended real s, the infinities included.
-/
import proofs.«115459_j56092272885821_2_alg».proof.Proof.Spec
import Idealize.ShloMosaic.PureOps.Ideal.Laws

noncomputable section

namespace Cert.Vdp

open Idealize.ShloMosaic

/-- The word 0x3FA00000 denotes the real 1.25. -/
theorem scale_eq : scale = ((1.25 : ℝ) : EReal) := by
  simp [Ideal.ofBits, Ideal.ieee, -EReal.coe_mul]; norm_num

/-- 1.25 is not zero. -/
theorem scale_ne_zero : scale ≠ 0 := by
  rw [scale_eq, EReal.coe_ne_zero]; norm_num

/-- The zero word denotes 0. -/
theorem zero_eq : zero = 0 := Ideal.ofBits_zero_f32

/-- Scaling by 1.25 neither creates nor destroys a zero: the extended reals have no zero divisors. -/
theorem mul_scale_ne_zero (x : EReal) : x * scale ≠ 0 ↔ x ≠ 0 := by
  rw [Ne, mul_eq_zero]
  constructor
  · intro h hx; exact h (Or.inl hx)
  · intro hx h; rcases h with h | h
    · exact hx h
    · exact scale_ne_zero h

/-- A keep bit widened to a word is nonzero exactly when the bit is 1. -/
theorem kept_widen (k : BitVec 1) : kept (BitVec.setWidth 32 k) = k := by
  rcases BitVec.eq_zero_or_eq_one k with h | h <;> subst h <;> decide

/-- The two spellings of a dropped mean agree. -/
theorem kerMu_widen (k : BitVec 1) (x : EReal) : kerMu (BitVec.setWidth 32 k) x = dropMu k x := by
  unfold kerMu dropMu
  rw [kept_widen]

/-- A unit is live (its dropped mean is nonzero) exactly when it is kept and its original mean is nonzero. -/
theorem live_eq (k : BitVec 1) (x : EReal) :
    Ideal.cmp .une (dropMu k x) zero = IntOp.andi k (Ideal.cmp .one x zero) := by
  rcases BitVec.eq_zero_or_eq_one k with h | h <;> subst h
  · simp [dropMu, Scalar.select, Ideal.cmp, IntOp.andi]
  · by_cases hx : x = 0
    · subst hx
      simp [dropMu, Scalar.select, Ideal.cmp, IntOp.andi, zero_eq]
    · have h1 : x * scale ≠ 0 := (mul_scale_ne_zero x).2 hx
      simp [dropMu, Scalar.select, Ideal.cmp, IntOp.andi, zero_eq, hx, h1]

/-- The 0/1 value of a bit, widened to a word and read as a signed integer, as an extended real. -/
def bitVal (b : BitVec 1) : EReal := (((BitVec.setWidth 32 b).toInt : ℝ) : EReal)

theorem bitVal_zero : bitVal 0#1 = 0 := by
  simp [bitVal]

theorem bitVal_one : bitVal 1#1 = 1 := by
  simp [bitVal]

/-- The factor of a unit is the 0/1 value of its liveness bit. -/
theorem factor_widen (k : BitVec 1) (x : EReal) :
    factor (BitVec.setWidth 32 k) x = bitVal (Ideal.cmp .une (dropMu k x) zero) := by
  unfold factor bitVal
  rw [kept_widen, live_eq]

/-- The two spellings of a dropped covariance entry agree: the product of the two 0/1 factors is the mask. -/
theorem kerSig_widen (ki kj : BitVec 1) (xi xj s : EReal) :
    kerSig (BitVec.setWidth 32 ki) (BitVec.setWidth 32 kj) xi xj s = dropSig ki kj xi xj s := by
  unfold kerSig dropSig
  rw [factor_widen, factor_widen]
  generalize Ideal.cmp .une (dropMu ki xi) zero = a
  generalize Ideal.cmp .une (dropMu kj xj) zero = b
  rcases BitVec.eq_zero_or_eq_one a with h | h <;> subst h <;>
  rcases BitVec.eq_zero_or_eq_one b with h | h <;> subst h <;>
  simp [bitVal_zero, bitVal_one, Scalar.select, IntOp.andi, zero_eq, mul_comm]

end Cert.Vdp

end
-- ==== Proof.KICover.lean ====
/-
  The kernel's grid and the blocks of its windows: which block holds which rows.

  The grid is 4 × 16.  At point (p, q):
    * the two (8, 128) input windows and the mean output window hold rows 8p … 8p+7 and units 128q … 128q+127;
    * the two (8, 2048) input windows hold rows 8p … 8p+7 and every unit;
    * the covariance input and output windows hold rows 8p … 8p+7, first units 128q … 128q+127 and every second
      unit.
  Since 32 = 4 · 8 and 2048 = 16 · 128, every entry of the mean array lies in the block of the point
  (row / 8, unit / 128), and every entry of the covariance array in the block of (row / 8, first unit / 128);
  each point writes both of its output blocks back.  So the output blocks cover their arrays.
-/
import proofs.«115459_j56092272885821_2_alg».proof.Proof.Gen.KernelIdeal.Points
import Idealize.ShloMosaic.Lib.Pipeline.Value

noncomputable section

namespace Cert.Vdp.Cover

open Cert.KernelIdeal Cert.KernelIdeal.Gen Idealize.ShloMosaic

/-- The block indices of every window at a grid point, relative to the mean output window's (p, q): the
    (8, 128) inputs sit at (p, q), the (8, 2048) inputs at (p, 0), the covariance windows at (p, q, 0); and
    p ≤ 3, q ≤ 15. -/
theorem idx_facts : ∀ t : Fin cfg0.N,
      win0_0.index t (0 : Fin 2) = win0_5.index t (0 : Fin 2) ∧ win0_0.index t (1 : Fin 2) = win0_5.index t (1 : Fin 2)
    ∧ win0_2.index t (0 : Fin 2) = win0_5.index t (0 : Fin 2) ∧ win0_2.index t (1 : Fin 2) = win0_5.index t (1 : Fin 2)
    ∧ win0_1.index t (0 : Fin 2) = win0_5.index t (0 : Fin 2) ∧ win0_1.index t (1 : Fin 2) = 0
    ∧ win0_3.index t (0 : Fin 2) = win0_5.index t (0 : Fin 2) ∧ win0_3.index t (1 : Fin 2) = 0
    ∧ win0_4.index t (0 : Fin 3) = win0_5.index t (0 : Fin 2) ∧ win0_4.index t (1 : Fin 3) = win0_5.index t (1 : Fin 2) ∧ win0_4.index t (2 : Fin 3) = 0
    ∧ win0_6.index t (0 : Fin 3) = win0_5.index t (0 : Fin 2) ∧ win0_6.index t (1 : Fin 3) = win0_5.index t (1 : Fin 2) ∧ win0_6.index t (2 : Fin 3) = 0
    ∧ win0_5.index t (0 : Fin 2) ≤ 3 ∧ win0_5.index t (1 : Fin 2) ≤ 15 :=
  (by decide +kernel : ∀ t : Fin grid0.N, _)

/-- Every pair (p, q) with p < 4 and q < 16 is the mean output window's block index at some grid point. -/
theorem idx_onto : ∀ (q0 : Fin 4) (q1 : Fin 16), ∃ t : Fin cfg0.N,
    win0_5.index t (0 : Fin 2) = q0.val ∧ win0_5.index t (1 : Fin 2) = q1.val :=
  (by decide +kernel : ∀ (q0 : Fin 4) (q1 : Fin 16), ∃ t : Fin grid0.N,
    win0_5.index t (0 : Fin 2) = q0.val ∧ win0_5.index t (1 : Fin 2) = q1.val)

/-- An entry of the mean array is in a point's block iff each coordinate is in the block's range on its axis. -/
theorem mem_blk5 (t : Fin cfg0.N) (i : S32x2048.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v1_0).slice (win0_5.rect t)).set ↔ _
  rw [View.set_slice_whole, Rect.mem_set_unit]
  exact Iff.rfl

/-- An entry of the covariance array is in a point's block iff each coordinate is in the block's range on its
    axis. -/
theorem mem_blk6 (t : Fin cfg0.N) (i : S32x2048x2048.Idx) :
    i ∈ ((cfg0.win 6).blk t).view.set ↔ ∀ a : Fin 3, win0_6.index t a * S8x128x2048.size a ≤ (i a).val ∧ (i a).val < win0_6.index t a * S8x128x2048.size a + S8x128x2048.size a := by
  show i ∈ ((View.whole main_v1_1).slice (win0_6.rect t)).set ↔ _
  rw [View.set_slice_whole, Rect.mem_set_unit]
  exact Iff.rfl

/-- Every entry (r, u) of the mean array is written back: it lies in the block of the point (r / 8, u / 128). -/
theorem cover5 (i : S32x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  obtain ⟨t, ht0, ht1⟩ := idx_onto ⟨(i 0).val / 8, by omega⟩ ⟨(i 1).val / 128, by omega⟩
  have q0 : win0_5.index t (0 : Fin 2) = (i 0).val / 8 := ht0
  have q1 : win0_5.index t (1 : Fin 2) = (i 1).val / 128 := ht1
  refine ⟨t, flush0_5 t, ?_⟩
  rw [mem_blk5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-- Every entry (r, u, v) of the covariance array is written back: it lies in the block of the point
    (r / 8, u / 128), whose block spans every second unit v. -/
theorem cover6 (i : S32x2048x2048.Idx) :
    ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 2048 := (i 2).isLt
  obtain ⟨t, ht0, ht1⟩ := idx_onto ⟨(i 0).val / 8, by omega⟩ ⟨(i 1).val / 128, by omega⟩
  have q0 : win0_5.index t (0 : Fin 2) = (i 0).val / 8 := ht0
  have q1 : win0_5.index t (1 : Fin 2) = (i 1).val / 128 := ht1
  obtain ⟨-, -, -, -, -, -, -, -, -, -, -, e0, e1, e2, -, -⟩ := idx_facts t
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 128 ≤ (i 1).val ∧ (i 1).val < win0_6.index t (1 : Fin 3) * 128 + 128; omega
  | ⟨2, _⟩ => show win0_6.index t (2 : Fin 3) * 2048 ≤ (i 2).val ∧ (i 2).val < win0_6.index t (2 : Fin 3) * 2048 + 2048; omega

end Cert.Vdp.Cover

end
-- ==== Proof.KIValue.lean ====
/-
  From blocks to arrays: after the run, the kernel's two result arrays are the dropped mean array and the dropped
  covariance array of the argument arrays.

  Each grid point (p, q) writes back block (p, q) of the result means and block (p, q, 0) of the result covariance.
  The mean block's entry (b, r) is the dropout of the mean at array entry (8p + b, 128q + r), whose keep word is the
  keep bit there widened.  The covariance block's entry (b, r, c) sits at array entry (8p + b, 128q + r, c); its row
  factor reads unit (8p + b, 128q + r) through the (8, 128) windows and its column factor reads unit (8p + b, c)
  through the whole-row windows, whose block (p, 0) spans every unit.  A widened keep bit is nonzero exactly when the
  bit is 1, which turns the factor form into the masked form.  The blocks of all the points cover both arrays.
-/
import proofs.«115459_j56092272885821_2_alg».proof.Proof.KIData
import proofs.«115459_j56092272885821_2_alg».proof.Proof.KIPayload
import proofs.«115459_j56092272885821_2_alg».proof.Proof.SpecLaws
import proofs.«115459_j56092272885821_2_alg».proof.Proof.KICover
import Idealize.ShloMosaic.Lib.Pipeline.Value
import Idealize.ShloMosaic.Lib.ValueIdx
import Idealize.ShloMosaic.Lib.StableHlo.Run

noncomputable section

namespace Cert.Vdp.KerValue

open Cert.KernelIdeal Cert.KernelIdeal.Gen Cert.KernelIdeal.Hand Idealize.ShloMosaic Idealize.ShloMosaic.TcCoe
  Idealize.ShloMosaic.ValueIdx Idealize.SL.Sem
open Idealize.ShloMosaic.Pipeline (Dat)
open Cert.Vdp.Ker

variable (m : (ℓ : Loc nD τ sig) → Buf (Elt Ideal) ℓ)

/-! ## The keep words the region finds -/

/-- The keep-word array the region finds is the keep bits widened. -/
theorem V_main_v0 (c : Dev nD) :
    (V m c main_v0 : S32x2048.Idx → BitVec 32) = fun i => BitVec.setWidth 32 (m ((c : Thread nD τ).loc main_arg2) i) := by
  have e : (V m c main_v0 : S32x2048.Idx → BitVec 32) = extui 32 (m ((c : Thread nD τ).loc main_arg2)) natLt_1_32 := by
    dsimp only [V, hostOps0]; after_results
  rw [e]; rfl

/-! ## One entry of a block -/

/-- A mean block's entry whose keep word is a widened bit \`k\` and whose mean is \`x\`: the dropout of \`x\` by \`k\`. -/
theorem mean_entry (xKeep : Vec Ideal S8x128 .i32) (xMu : Vec Ideal S8x128 .f32) (b : Fin 8) (r : Fin 128)
    (k : BitVec 1) (x : EReal) (hk : xKeep (ix2 b r) = BitVec.setWidth 32 k) (hx : xMu (ix2 b r) = x) :
    k0_pay2 (F := Ideal) xKeep xMu (ix2 b r) = dropMu k x := by
  rw [pay2_at, hk, hx, kerMu_widen]

/-- A covariance block's entry (b, r, c) whose two units' keep words are widened bits and whose means and entry are
    given: the dropout of the entry by the two units. -/
theorem cov_entry (xKeep : Vec Ideal S8x128 .i32) (xKeepRows : Vec Ideal S8x2048 .i32) (xMu : Vec Ideal S8x128 .f32)
    (xMuRows : Vec Ideal S8x2048 .f32) (xCov : Vec Ideal S8x128x2048 .f32) (b : Fin 8) (r : Fin 128) (c : Fin 2048)
    (ki kj : BitVec 1) (xi xj s : EReal)
    (hki : xKeep (ix2 b r) = BitVec.setWidth 32 ki) (hkj : xKeepRows (ix2 b c) = BitVec.setWidth 32 kj)
    (hxi : xMu (ix2 b r) = xi) (hxj : xMuRows (ix2 b c) = xj) (hs : xCov (ix3 b r c) = s) :
    k0_pay3 (F := Ideal) xKeep xKeepRows xMu xMuRows xCov (ix3 b r c) = dropSig ki kj xi xj s := by
  rw [pay3_at, hki, hkj, hxi, hxj, hs, kerSig_widen]

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What a point writes back -/

/-- What point \`t\` writes back to the result means is block \`t\` of the dropped mean array. -/
theorem flushedMu_eq (c : Dev nD) (t : Fin cfg0.N) :
    (dats m 0 c).flushed 5 t = ((cfg0.win 5).blk t).view.read (Elt Ideal)
      (outMu (m ((c : Thread nD τ).loc main_arg0)) (m ((c : Thread nD τ).loc main_arg2))) := by
  show (cfg0.win 5).cut (grid0.coords t) ((dats m 0 c).after 5 t) = _
  rw [after5]
  unfold outMean
  rw [View.canon_unit_zero zeros2]
  simp only [View.ld_unit_zero (S := S8x128) zeros2]
  obtain ⟨e00, e01, e20, e21, -⟩ := Cover.idx_facts t
  funext j
  obtain ⟨b, r, rfl⟩ : ∃ (b : Fin 8) (r : Fin 128), j = ix2 b r := ⟨j 0, j 1, eq_ix2 j⟩
  -- the means' block and the keep words' block sit where the result block sits
  have h0 : ((cfg0.win 0).blk t).view.emb (ix2 b r) = ((cfg0.win 5).blk t).view.emb (ix2 b r) := by
    funext a; apply Fin.ext
    match a with
    | ⟨0, _⟩ => show win0_0.index t (0 : Fin 2) * 8 + 1 * b.val = win0_5.index t (0 : Fin 2) * 8 + 1 * b.val; omega
    | ⟨1, _⟩ => show win0_0.index t (1 : Fin 2) * 128 + 1 * r.val = win0_5.index t (1 : Fin 2) * 128 + 1 * r.val; omega
  have h2 : ((cfg0.win 2).blk t).view.emb (ix2 b r) = ((cfg0.win 5).blk t).view.emb (ix2 b r) := by
    funext a; apply Fin.ext
    match a with
    | ⟨0, _⟩ => show win0_2.index t (0 : Fin 2) * 8 + 1 * b.val = win0_5.index t (0 : Fin 2) * 8 + 1 * b.val; omega
    | ⟨1, _⟩ => show win0_2.index t (1 : Fin 2) * 128 + 1 * r.val = win0_5.index t (1 : Fin 2) * 128 + 1 * r.val; omega
  show k0_pay2 (F := Ideal) (iblk m c 2 t) (iblk m c 0 t) (ix2 b r)
    = dropMu (m ((c : Thread nD τ).loc main_arg2) (((cfg0.win 5).blk t).view.emb (ix2 b r)))
        (m ((c : Thread nD τ).loc main_arg0) (((cfg0.win 5).blk t).view.emb (ix2 b r)))
  refine mean_entry _ _ b r _ _ ?_ ?_
  · show V m c main_v0 (((cfg0.win 2).blk t).view.emb (ix2 b r)) = _
    rw [V_main_v0, h2]
  · show V m c main_arg0 (((cfg0.win 0).blk t).view.emb (ix2 b r)) = _
    rw [V_main_arg0, h0]

/-- What point \`t\` writes back to the result covariance is block \`t\` of the dropped covariance array. -/
theorem flushedSig_eq (c : Dev nD) (t : Fin cfg0.N) :
    (dats m 0 c).flushed 6 t = ((cfg0.win 6).blk t).view.read (Elt Ideal)
      (outSig (m ((c : Thread nD τ).loc main_arg0)) (m ((c : Thread nD τ).loc main_arg1))
        (m ((c : Thread nD τ).loc main_arg2))) := by
  show (cfg0.win 6).cut (grid0.coords t) ((dats m 0 c).after 6 t) = _
  rw [after6]
  unfold outCov
  rw [View.canon_unit_zero zeros3]
  simp only [View.ld_unit_zero (S := S8x128) zeros2, View.ld_unit_zero (S := S8x2048) zeros2,
    View.ld_unit_zero (S := S8x128x2048) zeros3]
  obtain ⟨a00, a01, a20, a21, a10, a11, a30, a31, a40, a41, a42, a60, a61, a62, -, -⟩ := Cover.idx_facts t
  funext j
  obtain ⟨b, r, u, rfl⟩ : ∃ (b : Fin 8) (r : Fin 128) (u : Fin 2048), j = ix3 b r u := ⟨j 0, j 1, j 2, eq_ix3 j⟩
  -- the array entry under the result block's entry (b, r, u), and the two units it pairs
  have h4 : ((cfg0.win 4).blk t).view.emb (ix3 b r u) = ((cfg0.win 6).blk t).view.emb (ix3 b r u) := by
    funext a; apply Fin.ext
    match a with
    | ⟨0, _⟩ => show win0_4.index t (0 : Fin 3) * 8 + 1 * b.val = win0_6.index t (0 : Fin 3) * 8 + 1 * b.val; omega
    | ⟨1, _⟩ => show win0_4.index t (1 : Fin 3) * 128 + 1 * r.val = win0_6.index t (1 : Fin 3) * 128 + 1 * r.val; omega
    | ⟨2, _⟩ => show win0_4.index t (2 : Fin 3) * 2048 + 1 * u.val = win0_6.index t (2 : Fin 3) * 2048 + 1 * u.val; omega
  -- the row unit, through the (8, 128) windows
  have h0 : ((cfg0.win 0).blk t).view.emb (ix2 b r)
      = ix2 (((cfg0.win 6).blk t).view.emb (ix3 b r u) 0) (((cfg0.win 6).blk t).view.emb (ix3 b r u) 1) := by
    funext a; apply Fin.ext
    match a with
    | ⟨0, _⟩ => show win0_0.index t (0 : Fin 2) * 8 + 1 * b.val = win0_6.index t (0 : Fin 3) * 8 + 1 * b.val; omega
    | ⟨1, _⟩ => show win0_0.index t (1 : Fin 2) * 128 + 1 * r.val = win0_6.index t (1 : Fin 3) * 128 + 1 * r.val; omega
  have h2 : ((cfg0.win 2).blk t).view.emb (ix2 b r)
      = ix2 (((cfg0.win 6).blk t).view.emb (ix3 b r u) 0) (((cfg0.win 6).blk t).view.emb (ix3 b r u) 1) := by
    funext a; apply Fin.ext
    match a with
    | ⟨0, _⟩ => show win0_2.index t (0 : Fin 2) * 8 + 1 * b.val = win0_6.index t (0 : Fin 3) * 8 + 1 * b.val; omega
    | ⟨1, _⟩ => show win0_2.index t (1 : Fin 2) * 128 + 1 * r.val = win0_6.index t (1 : Fin 3) * 128 + 1 * r.val; omega
  -- the column unit, through the whole-row windows
  have h1 : ((cfg0.win 1).blk t).view.emb (ix2 b u)
      = ix2 (((cfg0.win 6).blk t).view.emb (ix3 b r u) 0) (((cfg0.win 6).blk t).view.emb (ix3 b r u) 2) := by
    funext a; apply Fin.ext
    match a with
    | ⟨0, _⟩ => show win0_1.index t (0 : Fin 2) * 8 + 1 * b.val = win0_6.index t (0 : Fin 3) * 8 + 1 * b.val; omega
    | ⟨1, _⟩ => show win0_1.index t (1 : Fin 2) * 2048 + 1 * u.val = win0_6.index t (2 : Fin 3) * 2048 + 1 * u.val; omega
  have h3 : ((cfg0.win 3).blk t).view.emb (ix2 b u)
      = ix2 (((cfg0.win 6).blk t).view.emb (ix3 b r u) 0) (((cfg0.win 6).blk t).view.emb (ix3 b r u) 2) := by
    funext a; apply Fin.ext
    match a with
    | ⟨0, _⟩ => show win0_3.index t (0 : Fin 2) * 8 + 1 * b.val = win0_6.index t (0 : Fin 3) * 8 + 1 * b.val; omega
    | ⟨1, _⟩ => show win0_3.index t (1 : Fin 2) * 2048 + 1 * u.val = win0_6.index t (2 : Fin 3) * 2048 + 1 * u.val; omega
  show k0_pay3 (F := Ideal) (iblk m c 2 t) (iblk m c 3 t) (iblk m c 0 t) (iblk m c 1 t) (iblk m c 4 t) (ix3 b r u)
    = dropSig
        (m ((c : Thread nD τ).loc main_arg2)
          (ix2 (((cfg0.win 6).blk t).view.emb (ix3 b r u) 0) (((cfg0.win 6).blk t).view.emb (ix3 b r u) 1)))
        (m ((c : Thread nD τ).loc main_arg2)
          (ix2 (((cfg0.win 6).blk t).view.emb (ix3 b r u) 0) (((cfg0.win 6).blk t).view.emb (ix3 b r u) 2)))
        (m ((c : Thread nD τ).loc main_arg0)
          (ix2 (((cfg0.win 6).blk t).view.emb (ix3 b r u) 0) (((cfg0.win 6).blk t).view.emb (ix3 b r u) 1)))
        (m ((c : Thread nD τ).loc main_arg0)
          (ix2 (((cfg0.win 6).blk t).view.emb (ix3 b r u) 0) (((cfg0.win 6).blk t).view.emb (ix3 b r u) 2)))
        (m ((c : Thread nD τ).loc main_arg1) (((cfg0.win 6).blk t).view.emb (ix3 b r u)))
  refine cov_entry _ _ _ _ _ b r u _ _ _ _ _ ?_ ?_ ?_ ?_ ?_
  · show V m c main_v0 (((cfg0.win 2).blk t).view.emb (ix2 b r)) = _
    rw [V_main_v0, h2]; rfl
  · show V m c main_v0 (((cfg0.win 3).blk t).view.emb (ix2 b u)) = _
    rw [V_main_v0, h3]; rfl
  · show V m c main_arg0 (((cfg0.win 0).blk t).view.emb (ix2 b r)) = _
    rw [V_main_arg0, h0]; rfl
  · show V m c main_arg0 (((cfg0.win 1).blk t).view.emb (ix2 b u)) = _
    rw [V_main_arg0, h1]; rfl
  · show V m c main_arg1 (((cfg0.win 4).blk t).view.emb (ix3 b r u)) = _
    rw [V_main_arg1, h4]

/-! ## The arrays after the run -/

/-- The result mean array after the run is the dropped mean array of the arguments. -/
theorem final5 (c : Dev nD) :
    (dats m 0 c).arrAt 5 cfg0.N
      = outMu (m ((c : Thread nD τ).loc main_arg0)) (m ((c : Thread nD τ).loc main_arg2)) :=
  (dats m 0 c).arrAt_eq_of_cover 5 _ (fun t _ => flushedMu_eq m c t) Cover.cover5

/-- The result covariance array after the run is the dropped covariance array of the arguments. -/
theorem final6 (c : Dev nD) :
    (dats m 0 c).arrAt 6 cfg0.N
      = outSig (m ((c : Thread nD τ).loc main_arg0)) (m ((c : Thread nD τ).loc main_arg1))
          (m ((c : Thread nD τ).loc main_arg2)) :=
  (dats m 0 c).arrAt_eq_of_cover 6 _ (fun t _ => flushedSig_eq m c t) Cover.cover6

end Cert.Vdp.KerValue

end
-- ==== Proof.RefValue.lean ====
/-
  The reference program's two results are the dropped mean array and the dropped covariance array of the
  specification module.

  Read one element at a time, the reference program computes: the mean times the broadcast 1.25 where the keep
  bit is set, the broadcast zero elsewhere; the liveness bit "dropped mean ≠ 0" per (row, unit); that bit
  broadcast along the second unit axis and along the first unit axis; their conjunction selecting the covariance
  entry or zero; and the broadcast 1.5625 times the selected entry.  Element (b, i, j) of the broadcast along the
  second unit axis reads unit (b, i); along the first, unit (b, j).
-/
import proofs.«115459_j56092272885821_2_alg».proof.Proof.Spec
import proofs.«115459_j56092272885821_2_alg».proof.Proof.Gen.ReferenceIdeal.Read

noncomputable section

namespace Cert.Vdp.Ref

open Idealize.ShloMosaic Idealize.ShloMosaic.ValueIdx Cert.ReferenceIdeal Cert.ReferenceIdeal.Read

variable [Cert.ReferenceIdeal.Facts]

/-- Element (b, i, j) of the liveness bit broadcast along the second unit axis reads unit (b, i). -/
theorem idx_row (a : Fin 32) (b c : Fin 2048) :
    idx_main_v6 (idx_main_v8 (ix3 a b c)) = (ix2 a b : S32x2048.Idx) :=
  funext fun a => Fin.ext (by match a with | ⟨0, _⟩ => rfl | ⟨1, _⟩ => rfl)

/-- Element (b, i, j) of the liveness bit broadcast along the first unit axis reads unit (b, j). -/
theorem idx_col (a : Fin 32) (b c : Fin 2048) :
    idx_main_v7 (idx_main_v9 (ix3 a b c)) = (ix2 a c : S32x2048.Idx) :=
  funext fun a => Fin.ext (by match a with | ⟨0, _⟩ => rfl | ⟨1, _⟩ => rfl)

/-- The reference program's first result is the dropped mean array. -/
theorem ref_mu (x0 : (⟨Cert.ReferenceIdeal.S32x2048, .f32⟩ : BufTy).Contents (Elt Ideal))
    (x2 : (⟨Cert.ReferenceIdeal.S32x2048, .i1⟩ : BufTy).Contents (Elt Ideal)) :
    Cert.ReferenceIdeal.Read.val_main_v3 (F := Ideal) x0 x2 = outMu x0 x2 := by
  funext i
  rw [val_main_v3_apply, val_main_v1_apply, val_main_v0_apply, val_main_cst_apply, val_main_v2_apply,
    val_main_cst_0_apply]
  rfl

/-- The liveness bit of the reference program at a unit is "the dropped mean is nonzero". -/
theorem ref_live (x0 : (⟨Cert.ReferenceIdeal.S32x2048, .f32⟩ : BufTy).Contents (Elt Ideal))
    (x2 : (⟨Cert.ReferenceIdeal.S32x2048, .i1⟩ : BufTy).Contents (Elt Ideal)) (j : S32x2048.Idx) :
    val_main_v5 (F := Ideal) x0 x2 j = Ideal.cmp .une (dropMu (x2 j) (x0 j)) zero := by
  rw [val_main_v5_apply, val_main_v4_apply, val_main_cst_1_apply, ref_mu]
  rfl

/-- The reference program's second result is the dropped covariance array. -/
theorem ref_sig (x0 : (⟨Cert.ReferenceIdeal.S32x2048, .f32⟩ : BufTy).Contents (Elt Ideal))
    (x1 : (⟨Cert.ReferenceIdeal.S32x2048x2048, .f32⟩ : BufTy).Contents (Elt Ideal))
    (x2 : (⟨Cert.ReferenceIdeal.S32x2048, .i1⟩ : BufTy).Contents (Elt Ideal)) :
    Cert.ReferenceIdeal.Read.val_main_v14 (F := Ideal) x0 x1 x2 = outSig x0 x1 x2 := by
  funext i
  obtain ⟨a, b, c, rfl⟩ : ∃ (a : Fin 32) (b c : Fin 2048), i = ix3 a b c := ⟨i 0, i 1, i 2, eq_ix3 i⟩
  rw [val_main_v14_apply, val_main_v13_apply, val_main_cst_3_apply, val_main_v12_apply, val_main_v10_apply,
    val_main_v8_apply, val_main_v6_apply, val_main_v9_apply, val_main_v7_apply, val_main_v11_apply,
    val_main_cst_2_apply, idx_row, idx_col, ref_live, ref_live]
  rfl

end Cert.Vdp.Ref

end
-- ==== Proof.lean ====
/-
  The certificate of the dropout kernel: the Pallas kernel and its jnp reference compute the same dropped mean
  vectors and the same dropped covariances, as extended reals.

  Both programs take a batch of 32 mean vectors of 2048 units, their 2048 × 2048 covariances and one keep bit per
  unit.  A kept unit's mean is scaled by 1/(1-p) = 1.25, a dropped unit's mean is 0; a covariance entry (i, j) is
  scaled by 1.5625 when units i and j of its batch row both have a nonzero dropped mean, and is 0 otherwise.

  The reference computes this literally: it selects the dropped means, compares them with 0, forms the outer
  conjunction of the comparison along the two unit axes, selects the covariance entry or 0 by it, and multiplies
  by 1.5625.  The kernel walks the covariance in blocks of 8 batch rows × 128 units × all 2048 units; at each block
  it turns "kept and of nonzero ORIGINAL mean" into a 0/1 factor per unit — for the block's 128 row units and for
  all 2048 column units of the same 8 batch rows — and multiplies the covariance block by the row factors, the
  column factors and 1.5625.  The two agree because x · 1.25 ≠ 0 exactly when x ≠ 0, and because s · 0 = 0 and
  s · 1 = s hold for every extended real s; no finiteness of the inputs is needed for the values.

  The frames (each program runs to its end, faults nowhere, leaves its arguments as launched) are: for the two
  kernel programs, the pipelined region's run over its 64 grid points, the mean array and the keep-word array each
  read through two windows and therefore each held in two half shares; for the reference, its run of twenty host
  operations.  The kernel's idealization rewrote no operation, so there is nothing to preserve.
-/
import proofs.«115459_j56092272885821_2_alg».proof.Defs
import proofs.«115459_j56092272885821_2_alg».proof.Proof.Gen.Kernel
import proofs.«115459_j56092272885821_2_alg».proof.Proof.Gen.KernelIdeal
import proofs.«115459_j56092272885821_2_alg».proof.Proof.Gen.ReferenceIdeal
import proofs.«115459_j56092272885821_2_alg».proof.Proof.Gen.ReferenceIdeal.Read
import proofs.«115459_j56092272885821_2_alg».proof.Proof.Gen.Pre_finite_inputs
import proofs.«115459_j56092272885821_2_alg».proof.Proof.KRun
import proofs.«115459_j56092272885821_2_alg».proof.Proof.KIRun
import proofs.«115459_j56092272885821_2_alg».proof.Proof.KIValue
import proofs.«115459_j56092272885821_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to its end and leaves its arguments unchanged. -/
theorem frame_kernel : Cert.frame_Kernel := fun m ρ _ => Cert.Kernel.Hand.frame m ρ

/-- So does the kernel program read over the extended reals. -/
theorem frame_kernelIdeal : Cert.frame_KernelIdeal := fun m ρ _ => Cert.KernelIdeal.Hand.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals, from memories agreeing on the arguments, both programs end with the dropped means
    `outMu` and the dropped covariances `outSig` of the arguments: the kernel's result arrays are those functions
    block by block, the reference's two result terms are those functions index by index. -/
theorem algebraic : Cert.algebraic_KernelIdeal_ReferenceIdeal := by
  intro m ρ m' ρ' _ hagree
  refine ⟨fun c => Cert.Vdp.outMu (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
    fun c => Cert.Vdp.outSig (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Vdp.KerValue.final5 m c), (h c).2.1.trans (Cert.Vdp.KerValue.final6 m c),
        (h c).2.2.1, (h c).2.2.2.1, (h c).2.2.2.2⟩)
      (Cert.KernelIdeal.Hand.run_blocks (F := Ideal) m ρ)
  · refine (θ_run Cert.ReferenceIdeal.defs _ _).mono (fun r h c => ⟨?_, ?_, (h c).2.2.1, (h c).2.2.2.1, (h c).2.2.2.2⟩)
      (Cert.ReferenceIdeal.Value.run (F := Ideal) m' ρ')
    · rw [(h c).1, Cert.ReferenceIdeal.Read.val_main_v3_eq, Cert.Vdp.Ref.ref_mu, (hagree c).1, (hagree c).2.2]
    · rw [(h c).2.1, Cert.ReferenceIdeal.Read.val_main_v14_eq, Cert.Vdp.Ref.ref_sig, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
